-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 57
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S128x64, .f32⟩
  | .local _ .vmem, ⟨10, _⟩ => ⟨S10000x1, .f32⟩
  | .local _ .vmem, ⟨11, _⟩ => ⟨S10000x1, .f32⟩
  | .local _ .vmem, ⟨12, _⟩ => ⟨S10000x64, .f32⟩
  | .local _ .vmem, ⟨13, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x64, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The kernel program's run with its result named. The program is five segments: host operations, the first
  pallas_call, host operations, the second pallas_call, host operations. Every weakly fair execution terminates, and
  the final memory holds, at each unscoped buffer, the contents obtained by folding the segments over the launch
  memory: a stretch of host operations applies its operations, a pallas_call replaces its output array by what
  its grid steps wrote back. This module states that fold's value at the program's result buffer beside the
  unchanged arguments.
-/
import proofs.«124078_j86328842650113_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the value of
    the segments' fold there, and the six arguments end as launched. -/
theorem run_main : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.Spec.lean ====
/-
  The two programs as one composition of four whole-array functions of the argument arrays, at the
  extended reals.

  A layer of the network is: project every node's feature row through the weight matrix, scale the row by the
  node's inverse out-degree, then send each edge's source row to its destination and add the rows that arrive at
  a node, and add the bias. `degInv` is 1 / max(out-degree, 1) (the out-degree counted by adding a one per edge
  at its source); `scaled1` and `scaled2` are the projection times the inverse degree for the two layers (the
  second clamps its input at zero first); `agg128` and `agg64` are the gather along the edges' sources, the
  sum at their destinations, and the bias. Read at an index, a scaled projection is an inner product of a
  feature row with a weight column, times that node's inverse degree.
-/
import proofs.«124078_j86328842650113_1_alg».proof.Proof.Gen.ReferenceIdeal
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Cert.ReferenceIdeal Cert.ReferenceIdeal.Gen
open scoped BigOperators

/-- The float zero word, as an extended real. -/
abbrev zeroF : EReal := Ideal.ofBits .f32 0x00000000#32

/-- Row `r` of the edge list (row 0: the sources, row 1: the destinations), as a flat array. -/
def srcRow (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
def dstRow (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- A negative node number counts from the end: add the number of nodes to it. -/
def wrapIdx (s : (⟨S1600000, .i32⟩ : BufTy).Contents (Elt Ideal)) : (⟨S1600000, .i32⟩ : BufTy).Contents (Elt Ideal) :=
  select (cmpi .slt s (broadcastInDim S1600000 ![] bcast_S_S1600000 (constantI S_ 32 0#32)))
    (addi s (broadcastInDim S1600000 ![] bcast_S_S1600000 (constantI S_ 32 100000#32))) s

/-- 1 / max(out-degree, 1) per node: the out-degree is a one added at each edge's source. -/
def degInv (ei : (⟨S2x1600000, .i32⟩ : BufTy).Contents (Elt Ideal)) : FVec Ideal S100000 .f32 :=
  Host.divf (F := Ideal) (broadcastInDim S100000 ![] bcast_S_S100000 (constant (F := Ideal) S_ .f32 0x3F800000#32))
    (maximumf (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (srcRow ei))
        (broadcastInDim S1600000 ![] bcast_S_S1600000 (constant (F := Ideal) S_ .f32 0x3F800000#32)))
      (broadcastInDim S100000 ![] bcast_S_S100000 (constant (F := Ideal) S_ .f32 0x3F800000#32)))

/-- Layer 1 before the edges: (x · w) with row `p` scaled by `d p`. -/
def scaled1 (x : FVec Ideal S100000x128 .f32) (w : FVec Ideal S128x128 .f32) (d : FVec Ideal S100000 .f32) : FVec Ideal S100000x128 .f32 :=
  mulf (Host.dotGeneral (F := Ideal) dot_S100000x128_S128x128_S100000x128_1_0_0_1_n_n none x w)
    (broadcastInDim S100000x128 ![0, 1] bcast_S100000x1_S100000x128_0_1 (broadcastInDim S100000x1 ![0] bcast_S100000_S100000x1_0 d))

/-- Layer 2 before the edges: (max(x, 0) · w) with row `p` scaled by `d p`. -/
def scaled2 (x : FVec Ideal S100000x128 .f32) (w : FVec Ideal S128x64 .f32) (d : FVec Ideal S100000 .f32) : FVec Ideal S100000x64 .f32 :=
  mulf (Host.dotGeneral (F := Ideal) dot_S100000x128_S128x64_S100000x64_1_0_0_1_n_n none
      (maximumf x (broadcastInDim S100000x128 ![] bcast_S_S100000x128 (constant (F := Ideal) S_ .f32 0x00000000#32))) w)
    (broadcastInDim S100000x64 ![0, 1] bcast_S100000x1_S100000x64_0_1 (broadcastInDim S100000x1 ![0] bcast_S100000_S100000x1_0 d))

/-- Layer 1 along the edges: rows gathered at the sources, summed at the destinations, plus the bias. -/
def agg128 (h : FVec Ideal S100000x128 .f32) (ei : (⟨S2x1600000, .i32⟩ : BufTy).Contents (Elt Ideal)) (b : FVec Ideal S128 .f32) : FVec Ideal S100000x128 .f32 :=
  addf (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstRow ei))
      (Host.gather gather_S100000x128_S1600000x1_S1600000x128_1_0_n_n_0_1_1128 h
        (broadcastInDim S1600000x1 ![0] bcast_S1600000_S1600000x1_0 (wrapIdx (srcRow ei)))))
    (broadcastInDim S100000x128 ![0, 1] bcast_S1x128_S100000x128_0_1 (broadcastInDim S1x128 ![1] bcast_S128_S1x128_1 b))

/-- Layer 2 along the edges. -/
def agg64 (h : FVec Ideal S100000x64 .f32) (ei : (⟨S2x1600000, .i32⟩ : BufTy).Contents (Elt Ideal)) (b : FVec Ideal S64 .f32) : FVec Ideal S100000x64 .f32 :=
  addf (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dstRow ei))
      (Host.gather gather_S100000x64_S1600000x1_S1600000x64_1_0_n_n_0_1_164 h
        (broadcastInDim S1600000x1 ![0] bcast_S1600000_S1600000x1_0 (wrapIdx (srcRow ei)))))
    (broadcastInDim S100000x64 ![0, 1] bcast_S1x64_S100000x64_0_1 (broadcastInDim S1x64 ![1] bcast_S64_S1x64_1 b))

/-- The whole network. -/
def net (x : FVec Ideal S100000x128 .f32) (ei : (⟨S2x1600000, .i32⟩ : BufTy).Contents (Elt Ideal)) (w1 : FVec Ideal S128x128 .f32)
    (b1 : FVec Ideal S128 .f32) (w2 : FVec Ideal S128x64 .f32) (b2 : FVec Ideal S64 .f32) : FVec Ideal S100000x64 .f32 :=
  agg64 (scaled2 (agg128 (scaled1 x w1 (degInv ei)) ei b1) w2 (degInv ei)) ei b2

end Cert.Gcn

end
-- ==== Proof.KFold0.lean ====
/-
  The kernel program's first stretch of host operations, read: what the edge list's two rows, the inverse-degree
  column and the untouched arguments hold when the first pallas_call is entered.
-/
import proofs.«124078_j86328842650113_1_alg».proof.Proof.Gen.KernelIdeal.Frame
import proofs.«124078_j86328842650113_1_alg».proof.Proof.Spec
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The sources' row of the edge list, as the first call finds it. -/
theorem W1_src (c : Dev nD) : W1 m ρ c (Proc.devRef .tc main_v1) = Cert.Gcn.srcRow (m ((c : Thread nD τ).loc main_arg1)) := by
  show StableHlo.after hostOps0 (W0 m ρ c) (Proc.devRef .tc main_v1) = _
  after_results
  rfl

/-- The destinations' row of the edge list. -/
theorem W1_dst (c : Dev nD) : W1 m ρ c (Proc.devRef .tc main_v3) = Cert.Gcn.dstRow (m ((c : Thread nD τ).loc main_arg1)) := by
  show StableHlo.after hostOps0 (W0 m ρ c) (Proc.devRef .tc main_v3) = _
  after_results
  rfl

/-- The inverse-degree column: the inverse degrees reshaped to [100000, 1]. -/
theorem W1_deg (c : Dev nD) : W1 m ρ c (Proc.devRef .tc main_v12)
    = shapeCast S100000x1 (Cert.Gcn.degInv (m ((c : Thread nD τ).loc main_arg1))) shapeCasts_S100000_S100000x1 := by
  show StableHlo.after hostOps0 (W0 m ρ c) (Proc.devRef .tc main_v12) = _
  after_results
  rfl

end Cert.KernelIdeal.Fold

end
-- ==== Proof.SpecAt.lean ====
/-
  The scaled projections of the specification read at one index: an inner product of a feature row with a
  weight column, times the node's inverse degree.
-/
import proofs.«124078_j86328842650113_1_alg».proof.Proof.Spec

noncomputable section

namespace Cert.Gcn

open Idealize.ShloMosaic Idealize.ShloMosaic.ValueIdx Cert.ReferenceIdeal Cert.ReferenceIdeal.Gen
open scoped BigOperators

/-- The left operand's row coordinate under the contraction of layer 1 is the output's row. -/
theorem dotLhsRow0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- The left operand's column coordinate is the contraction position. -/
theorem dotLhsCol0 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- The right operand's row coordinate is the contraction position. -/
theorem dotRhsRow0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- The right operand's column coordinate is the output's column. -/
theorem dotRhsCol0 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The projection of layer 1 read at (p, q): the inner product of row p with column q. -/
theorem dot0_apply (a : FVec Ideal S100000x128 .f32) (b : FVec Ideal S128x128 .f32) (p : Fin 100000) (q : Fin 128) :
    Host.dotGeneral (F := Ideal) dot_S100000x128_S128x128_S100000x128_1_0_0_1_n_n none a b (ix2 p q)
      = ∑ k : Fin 128, a (ix2 p k) * b (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k :=
    funext fun e => Fin.ext (by
      match e with
      | ⟨0, _⟩ => exact dotLhsRow0 _ _
      | ⟨1, _⟩ => exact (dotLhsCol0 _ _).trans hk)
  have er : dot_S100000x128_S128x128_S100000x128_1_0_0_1_n_n.rhsIdx (ix2 p q) ((contrEquiv1 dot_S100000x128_S128x128_S100000x128_1_0_0_1_n_n 128 rfl rfl).symm k) = ix2 k q :=
    funext fun e => Fin.ext (by
      match e with
      | ⟨0, _⟩ => exact (dotRhsRow0 _ _).trans hk
      | ⟨1, _⟩ => exact dotRhsCol0 _ _)
  rw [el, er]

/-- The per-node vector spread along the row of layer 1's output, read at (p, q): its entry for node p. -/
theorem rowScale0_apply (d : FVec Ideal S100000 .f32) (p : Fin 100000) (q : Fin 128) :
    broadcastInDim S100000x128 ![0, 1] bcast_S100000x1_S100000x128_0_1 (broadcastInDim S100000x1 ![0] bcast_S100000_S100000x1_0 d) (ix2 p q)
      = d (ix1 p) := by
  refine (broadcastInDim_apply _ bcast_S100000x1_S100000x128_0_1 _ (ix2 p q) (ix2 p (0 : Fin 1)) (fun e => match e with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 d (ix2 p (0 : Fin 1)) (ix1 p) (fun e => match e with
    | ⟨0, _⟩ => by show p.val = if (100000 : Nat) = 1 then 0 else p.val; rw [if_neg (by decide)])

/-- The left operand's row coordinate under the contraction of layer 2 is the output's row. -/
theorem dotLhsRow1 (i : S100000x64.Idx) (c : dot_S100000x128_S128x64_S100000x64_1_0_0_1_n_n.contr.Idx) :
    (dot_S100000x128_S128x64_S100000x64_1_0_0_1_n_n.lhsIdx i c 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
/-- The left operand's column coordinate is the contraction position. -/
theorem dotLhsCol1 (i : S100000x64.Idx) (c : dot_S100000x128_S128x64_S100000x64_1_0_0_1_n_n.contr.Idx) :
    (dot_S100000x128_S128x64_S100000x64_1_0_0_1_n_n.lhsIdx i c 1).val = (c ⟨0, by decide⟩).val :=
  dot_S100000x128_S128x64_S100000x64_1_0_0_1_n_n.lhsIdx_val_of_single rfl i c
/-- The right operand's row coordinate is the contraction position. -/
theorem dotRhsRow1 (i : S100000x64.Idx) (c : dot_S100000x128_S128x64_S100000x64_1_0_0_1_n_n.contr.Idx) :
    (dot_S100000x128_S128x64_S100000x64_1_0_0_1_n_n.rhsIdx i c 0).val = (c ⟨0, by decide⟩).val :=
  dot_S100000x128_S128x64_S100000x64_1_0_0_1_n_n.rhsIdx_val_of_single rfl i c
/-- The right operand's column coordinate is the output's column. -/
theorem dotRhsCol1 (i : S100000x64.Idx) (c : dot_S100000x128_S128x64_S100000x64_1_0_0_1_n_n.contr.Idx) :
    (dot_S100000x128_S128x64_S100000x64_1_0_0_1_n_n.rhsIdx i c 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The projection of layer 2 read at (p, q): the inner product of row p with column q. -/
theorem dot1_apply (a : FVec Ideal S100000x128 .f32) (b : FVec Ideal S128x64 .f32) (p : Fin 100000) (q : Fin 64) :
    Host.dotGeneral (F := Ideal) dot_S100000x128_S128x64_S100000x64_1_0_0_1_n_n none a b (ix2 p q)
      = ∑ k : Fin 128, a (ix2 p k) * b (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k :=
    funext fun e => Fin.ext (by
      match e with
      | ⟨0, _⟩ => exact dotLhsRow1 _ _
      | ⟨1, _⟩ => exact (dotLhsCol1 _ _).trans hk)
  have er : dot_S100000x128_S128x64_S100000x64_1_0_0_1_n_n.rhsIdx (ix2 p q) ((contrEquiv1 dot_S100000x128_S128x64_S100000x64_1_0_0_1_n_n 128 rfl rfl).symm k) = ix2 k q :=
    funext fun e => Fin.ext (by
      match e with
      | ⟨0, _⟩ => exact (dotRhsRow1 _ _).trans hk
      | ⟨1, _⟩ => exact dotRhsCol1 _ _)
  rw [el, er]

/-- The per-node vector spread along the row of layer 2's output, read at (p, q): its entry for node p. -/
theorem rowScale1_apply (d : FVec Ideal S100000 .f32) (p : Fin 100000) (q : Fin 64) :
    broadcastInDim S100000x64 ![0, 1] bcast_S100000x1_S100000x64_0_1 (broadcastInDim S100000x1 ![0] bcast_S100000_S100000x1_0 d) (ix2 p q)
      = d (ix1 p) := by
  refine (broadcastInDim_apply _ bcast_S100000x1_S100000x64_0_1 _ (ix2 p q) (ix2 p (0 : Fin 1)) (fun e => match e with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 d (ix2 p (0 : Fin 1)) (ix1 p) (fun e => match e with
    | ⟨0, _⟩ => by show p.val = if (100000 : Nat) = 1 then 0 else p.val; rw [if_neg (by decide)])

/-- The zero constant spread over the feature array reads the extended real zero at every index. -/
theorem zeroSpread_apply (j : S100000x128.Idx) :
    broadcastInDim S100000x128 ![] bcast_S_S100000x128 (constant (F := Ideal) S_ .f32 0x00000000#32) j = zeroF :=
  broadcastInDim_apply _ bcast_S_S100000x128 (constant (F := Ideal) S_ .f32 0x00000000#32) j ix0 (fun e => e.elim0)

/-- Entry (p, q) of layer 1's scaled projection: the inner product of feature row `p` with weight column `q`,
    times the inverse degree of node `p`. -/
theorem scaled1_apply (x : FVec Ideal S100000x128 .f32) (w : FVec Ideal S128x128 .f32) (d : FVec Ideal S100000 .f32)
    (p : Fin 100000) (q : Fin 128) :
    scaled1 x w d (ix2 p q) = (∑ k : Fin 128, x (ix2 p k) * w (ix2 k q)) * d (ix1 p) := by
  unfold scaled1
  refine (mulf_apply _ _ (ix2 p q)).trans ?_
  exact congrArg₂ (· * ·) (dot0_apply x w p q) (rowScale0_apply d p q)

/-- Entry (p, q) of layer 2's scaled projection: the same with the features clamped at zero first. -/
theorem scaled2_apply (x : FVec Ideal S100000x128 .f32) (w : FVec Ideal S128x64 .f32) (d : FVec Ideal S100000 .f32)
    (p : Fin 100000) (q : Fin 64) :
    scaled2 x w d (ix2 p q) = (∑ k : Fin 128, max (x (ix2 p k)) zeroF * w (ix2 k q)) * d (ix1 p) := by
  unfold scaled2
  refine (mulf_apply _ _ (ix2 p q)).trans ?_
  refine congrArg₂ (· * ·) ?_ (rowScale1_apply d p q)
  refine (dot1_apply _ w p q).trans ?_
  refine Finset.sum_congr rfl fun k _ => ?_
  -- the clamped feature entry: the maximum of the entry and the zero constant read at the same index
  refine congrArg (· * w (ix2 k q)) ?_
  refine (maximumf_apply _ _ (ix2 p k)).trans ?_
  rw [zeroSpread_apply]

end Cert.Gcn

end
-- ==== Proof.PayAt.lean ====
/-
  What one grid step of each kernel stores, read at one index of its block: the inner product of a row of the
  feature block with a column of the weight matrix, times the row's entry of the inverse-degree column block.
-/
import proofs.«124078_j86328842650113_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Idealize.ShloMosaic Idealize.ShloMosaic.ValueIdx Cert.KernelIdeal Cert.KernelIdeal.Gen
open scoped BigOperators

/-- The left operand's row coordinate under the contraction of layer 1 is the output's row. -/
theorem lhsRow0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- The left operand's column coordinate is the contraction position. -/
theorem lhsCol0 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
/-- The right operand's row coordinate is the contraction position. -/
theorem rhsRow0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
/-- The right operand's column coordinate is the output's column. -/
theorem rhsCol0 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product into the zero block, read at (p, q): the inner product of row p with column q. -/
theorem matmul0_apply (a : FVec Ideal S10000x128 .bf16) (b : FVec Ideal S128x128 .bf16) (p : Fin 10000) (q : Fin 128) :
    matmul dot_S10000x128_S128x128_S10000x128_1_0_0_1_n_n none a b (constant S10000x128 .f32 0x00000000#32) (ix2 p q)
      = ∑ k : Fin 128, a (ix2 p k) * b (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun d => Fin.ext (by
      match d with
      | ⟨0, _⟩ => exact lhsRow0 _ _
      | ⟨1, _⟩ => exact (lhsCol0 _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun d => Fin.ext (by
      match d with
      | ⟨0, _⟩ => exact (rhsRow0 _ _).trans hk
      | ⟨1, _⟩ => exact rhsCol0 _ _)
  rw [el, er]

/-- The inverse-degree column spread along the row, read at (p, q): its entry for row p. -/
theorem spread0_apply (y : FVec Ideal S10000x1 .f32) (p : Fin 10000) (q : Fin 128) :
    broadcastTo S10000x128 y broadcasts_S10000x1_S10000x128 (ix2 p q) = y (ix2 p (0 : Fin 1)) :=
  broadcastTo_apply y broadcasts_S10000x1_S10000x128 (ix2 p q) (ix2 p (0 : Fin 1)) (fun d => match d with
    | ⟨0, _⟩ => by show p.val = if (10000 : Nat) = 1 then 0 else p.val; rw [if_neg (by decide)]
    | ⟨1, _⟩ => by show 0 = if (1 : Nat) = 1 then 0 else q.val; rw [if_pos rfl])

/-- The left operand's row coordinate under the contraction of layer 2 is the output's row. -/
theorem lhsRow1 (i : S10000x64.Idx) (c : dot_S10000x128_S128x64_S10000x64_1_0_0_1_n_n.contr.Idx) :
    (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- The left operand's column coordinate is the contraction position. -/
theorem lhsCol1 (i : S10000x64.Idx) (c : dot_S10000x128_S128x64_S10000x64_1_0_0_1_n_n.contr.Idx) :
    (dot_S10000x128_S128x64_S10000x64_1_0_0_1_n_n.lhsIdx i c 1).val = (c ⟨0, by decide⟩).val :=
  dot_S10000x128_S128x64_S10000x64_1_0_0_1_n_n.lhsIdx_val_of_single rfl i c
/-- The right operand's row coordinate is the contraction position. -/
theorem rhsRow1 (i : S10000x64.Idx) (c : dot_S10000x128_S128x64_S10000x64_1_0_0_1_n_n.contr.Idx) :
    (dot_S10000x128_S128x64_S10000x64_1_0_0_1_n_n.rhsIdx i c 0).val = (c ⟨0, by decide⟩).val :=
  dot_S10000x128_S128x64_S10000x64_1_0_0_1_n_n.rhsIdx_val_of_single rfl i c
/-- The right operand's column coordinate is the output's column. -/
theorem rhsCol1 (i : S10000x64.Idx) (c : dot_S10000x128_S128x64_S10000x64_1_0_0_1_n_n.contr.Idx) :
    (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The product into the zero block, read at (p, q): the inner product of row p with column q. -/
theorem matmul1_apply (a : FVec Ideal S10000x128 .bf16) (b : FVec Ideal S128x64 .bf16) (p : Fin 10000) (q : Fin 64) :
    matmul dot_S10000x128_S128x64_S10000x64_1_0_0_1_n_n none a b (constant S10000x64 .f32 0x00000000#32) (ix2 p q)
      = ∑ k : Fin 128, a (ix2 p k) * b (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k :=
    funext fun d => Fin.ext (by
      match d with
      | ⟨0, _⟩ => exact lhsRow1 _ _
      | ⟨1, _⟩ => exact (lhsCol1 _ _).trans hk)
  have er : dot_S10000x128_S128x64_S10000x64_1_0_0_1_n_n.rhsIdx (ix2 p q) ((contrEquiv1 dot_S10000x128_S128x64_S10000x64_1_0_0_1_n_n 128 rfl rfl).symm k) = ix2 k q :=
    funext fun d => Fin.ext (by
      match d with
      | ⟨0, _⟩ => exact (rhsRow1 _ _).trans hk
      | ⟨1, _⟩ => exact rhsCol1 _ _)
  rw [el, er]

/-- The inverse-degree column spread along the row, read at (p, q): its entry for row p. -/
theorem spread1_apply (y : FVec Ideal S10000x1 .f32) (p : Fin 10000) (q : Fin 64) :
    broadcastTo S10000x64 y broadcasts_S10000x1_S10000x64 (ix2 p q) = y (ix2 p (0 : Fin 1)) :=
  broadcastTo_apply y broadcasts_S10000x1_S10000x64 (ix2 p q) (ix2 p (0 : Fin 1)) (fun d => match d with
    | ⟨0, _⟩ => by show p.val = if (10000 : Nat) = 1 then 0 else p.val; rw [if_neg (by decide)]
    | ⟨1, _⟩ => by show 0 = if (1 : Nat) = 1 then 0 else q.val; rw [if_pos rfl])

/-- Layer 1's step: entry (p, q) of the stored block. -/
theorem pay0_apply (x0 : Vec Ideal S10000x128 .f32) (x1 : Vec Ideal S128x128 .f32) (x2 : Vec Ideal S10000x1 .f32)
    (p : Fin 10000) (q : Fin 128) :
    k0_pay1 (F := Ideal) x0 x1 x2 (ix2 p q) = (∑ k : Fin 128, x0 (ix2 p k) * x1 (ix2 k q)) * x2 (ix2 p (0 : Fin 1)) := by
  unfold k0_pay1
  refine (mulf_apply _ _ (ix2 p q)).trans ?_
  refine congrArg₂ (· * ·) ?_ ?_
  · -- the narrowing to the shorter format is the identity on extended reals
    exact matmul0_apply _ _ p q
  · refine (spread0_apply _ p q).trans ?_
    exact congrFun (shapeCast_self x2 shapeCasts_S10000x1_S10000x1) (ix2 p (0 : Fin 1))

/-- Layer 2's step: the same with the feature block clamped at zero first. -/
theorem pay1_apply (x0 : Vec Ideal S10000x128 .f32) (x1 : Vec Ideal S128x64 .f32) (x2 : Vec Ideal S10000x1 .f32)
    (p : Fin 10000) (q : Fin 64) :
    k1_pay1 (F := Ideal) x0 x1 x2 (ix2 p q)
      = (∑ k : Fin 128, max (x0 (ix2 p k)) (Ideal.ofBits .f32 0x00000000#32) * x1 (ix2 k q)) * x2 (ix2 p (0 : Fin 1)) := by
  unfold k1_pay1
  refine (mulf_apply _ _ (ix2 p q)).trans ?_
  refine congrArg₂ (· * ·) ?_ ?_
  · refine (matmul1_apply _ _ p q).trans ?_
    refine Finset.sum_congr rfl fun k _ => ?_
    -- the clamped feature entry: the cast to the same shape is the identity, the zero scalar reads zero everywhere
    refine congrArg (· * x1 (ix2 k q)) ?_
    show max (shapeCast S10000x128 x0 shapeCasts_S10000x128_S10000x128 (ix2 p k)) (Ideal.ofBits .f32 0x00000000#32) = _
    rw [shapeCast_self x0 shapeCasts_S10000x128_S10000x128]
  · refine (spread1_apply _ p q).trans ?_
    exact congrFun (shapeCast_self x2 shapeCasts_S10000x1_S10000x1) (ix2 p (0 : Fin 1))

end Cert.Gcn

end
-- ==== Proof.KBlocks.lean ====
/-
  From grid steps to whole arrays. Each pallas_call walks the node axis in ten steps of 10000 rows. At step `t` the
  feature window holds rows 10000·t … 10000·t + 9999 of its array, the weight window the whole weight matrix, the
  inverse-degree window the same rows of the [100000, 1] column, and the step writes back rows 10000·t … of the output.
  So what a step writes back is the same rows of ONE whole-array function of the arrays the call finds (the scaled
  projection of the specification), the ten row blocks cover the output, and the output array ends holding that
  function.
-/
import proofs.«124078_j86328842650113_1_alg».proof.Proof.Gen.KernelIdeal.Frame
import proofs.«124078_j86328842650113_1_alg».proof.Proof.SpecAt
import proofs.«124078_j86328842650113_1_alg».proof.Proof.PayAt

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row `p` of step `T`'s block is row `10000·T + p` of the array. -/
def row (T : Nat) (hT : T < 10) (p : Fin 10000) : Fin 100000 := ⟨T * 10000 + p.val, by have := p.isLt; omega⟩

/-! ## Layer 1 -/

/-- One step of layer 1 on blocks that are rows `10000·T …` of the arrays: the stored block is those rows of the
    scaled projection. -/
theorem step0_eq (a0 : FVec Ideal S100000x128 .f32) (a1 : FVec Ideal S128x128 .f32) (d : FVec Ideal S100000 .f32)
    (x0 : Vec Ideal S10000x128 .f32) (x1 : Vec Ideal S128x128 .f32) (x2 : Vec Ideal S10000x1 .f32) (T : Nat) (hT : T < 10)
    (h0 : ∀ (p : Fin 10000) (k : Fin 128), x0 (ix2 p k) = a0 (ix2 (row T hT p) k))
    (h1 : ∀ (k : Fin 128) (q : Fin 128), x1 (ix2 k q) = a1 (ix2 k q))
    (h2 : ∀ p : Fin 10000, x2 (ix2 p (0 : Fin 1)) = d (ix1 (row T hT p)))
    (p : Fin 10000) (q : Fin 128) :
    k0_pay1 (F := Ideal) x0 x1 x2 (ix2 p q) = Cert.Gcn.scaled1 a0 a1 d (ix2 (row T hT p) q) := by
  rw [Cert.Gcn.pay0_apply, Cert.Gcn.scaled1_apply, h2]
  exact congrArg (· * d (ix1 (row T hT p))) (Finset.sum_congr rfl fun k _ => by rw [h0, h1])

/-- Where each window of the first call sits at a step, decided over the ten steps: the feature, inverse-degree and
    output windows at row block `t`, the weight window at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 10 := by have := t.isLt; have h : cfg0.N = 10 := N_0; omega

/-- The feature block at step `t` is rows `10000·t …` of the feature array. -/
theorem blk0_0 (c : Dev nD) (t : Fin cfg0.N) (p : Fin 10000) (k : Fin 128) :
    (iblk0 V c 0 t : Vec Ideal S10000x128 .f32) (ix2 p k) = (V c main_arg0 : S100000x128.Idx → EReal) (ix2 (row t.val (lt0 t) p) k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- The weight block at every step is the weight matrix. -/
theorem blk0_1 (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := idx0 t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The inverse-degree block at step `t` is rows `10000·t …` of the [100000, 1] column. -/
theorem blk0_2 (c : Dev nD) (t : Fin cfg0.N) (p : Fin 10000) :
    (iblk0 V c 2 t : Vec Ideal S10000x1 .f32) (ix2 p (0 : Fin 1)) = (V c main_v12 : S100000x1.Idx → EReal) (ix2 (row t.val (lt0 t) p) (0 : Fin 1)) := by
  obtain ⟨-, -, -, -, e0, e1, -⟩ := idx0 t
  unfold iblk0
  rw [View.read_apply]
  show V c main_v12 _ = V c main_v12 _
  refine congrArg (V c main_v12) ?_
  funext a
  apply Fin.ext
  match a with
  | ⟨0, _⟩ => show win0_2.index t (0 : Fin 2) * 10000 + 1 * p.val = t.val * 10000 + p.val; rw [e0]; omega
  | ⟨1, _⟩ => show win0_2.index t (1 : Fin 2) * 1 + 1 * 0 = 0; rw [e1]

/-- WHAT STEP `t` WRITES BACK is rows `10000·t …` of the scaled projection of the arrays the call finds, when the
    [100000, 1] column it finds holds `d`. -/
theorem flushed0_eq (c : Dev nD) (d : FVec Ideal S100000 .f32)
    (hd : ∀ P : Fin 100000, (V c main_v12 : S100000x1.Idx → EReal) (ix2 P (0 : Fin 1)) = d (ix1 P)) (t : Fin cfg0.N) :
    (dat0 V c).flushed 3 t = ((cfg0.win 3).blk t).view.read (Elt Ideal) (Cert.Gcn.scaled1 (V c main_arg0) (V c main_arg2) d) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S10000x1) hz]
  obtain ⟨-, -, -, -, -, -, e0, e1⟩ := idx0 t
  funext j
  obtain ⟨p, q, rfl⟩ : ∃ (p : Fin 10000) (q : Fin 128), j = ix2 p q := ⟨j 0, j 1, eq_ix2 j⟩
  refine (step0_eq (V c main_arg0) (V c main_arg2) d _ _ _ t.val (lt0 t) (blk0_0 V c t) (blk0_1 V c t)
    (fun p => (blk0_2 V c t p).trans (hd _)) p q).trans ?_
  rw [View.read_apply]
  refine congrArg (Cert.Gcn.scaled1 (V c main_arg0) (V c main_arg2) d) ?_
  funext a
  apply Fin.ext
  match a with
  | ⟨0, _⟩ => show t.val * 10000 + p.val = win0_3.index t (0 : Fin 2) * 10000 + 1 * p.val; rw [e0]; omega
  | ⟨1, _⟩ => show q.val = win0_3.index t (1 : Fin 2) * 128 + 1 * q.val; rw [e1]; omega

/-- An index of the output array is in step `t`'s block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v13).slice (win0_3.rect t)).set ↔ _
  rw [View.set_slice_whole, Rect.mem_set_unit]
  exact Iff.rfl

/-- Every row of the output lies in the block of the step that owns its row block: row `r` in step `r / 10000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  obtain ⟨-, -, -, -, -, -, e0, e1⟩ := idx0 ⟨(i 0).val / 10000, by rw [hN]; omega⟩
  rw [mem_blk0]
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- THE FIRST CALL'S OUTPUT ARRAY after its ten steps: the scaled projection of the arrays the call finds. -/
theorem final0 (c : Dev nD) (d : FVec Ideal S100000 .f32)
    (hd : ∀ P : Fin 100000, (V c main_v12 : S100000x1.Idx → EReal) (ix2 P (0 : Fin 1)) = d (ix1 P)) :
    (dat0 V c).arrAt 3 cfg0.N = Cert.Gcn.scaled1 (V c main_arg0) (V c main_arg2) d :=
  (dat0 V c).arrAt_eq_of_cover 3 (Cert.Gcn.scaled1 (V c main_arg0) (V c main_arg2) d)
    (fun t _ => flushed0_eq V c d hd t) cover0

/-! ## Layer 2 -/

/-- One step of layer 2 on blocks that are rows `10000·T …` of the arrays. -/
theorem step1_eq (a0 : FVec Ideal S100000x128 .f32) (a1 : FVec Ideal S128x64 .f32) (d : FVec Ideal S100000 .f32)
    (x0 : Vec Ideal S10000x128 .f32) (x1 : Vec Ideal S128x64 .f32) (x2 : Vec Ideal S10000x1 .f32) (T : Nat) (hT : T < 10)
    (h0 : ∀ (p : Fin 10000) (k : Fin 128), x0 (ix2 p k) = a0 (ix2 (row T hT p) k))
    (h1 : ∀ (k : Fin 128) (q : Fin 64), x1 (ix2 k q) = a1 (ix2 k q))
    (h2 : ∀ p : Fin 10000, x2 (ix2 p (0 : Fin 1)) = d (ix1 (row T hT p)))
    (p : Fin 10000) (q : Fin 64) :
    k1_pay1 (F := Ideal) x0 x1 x2 (ix2 p q) = Cert.Gcn.scaled2 a0 a1 d (ix2 (row T hT p) q) := by
  rw [Cert.Gcn.pay1_apply, Cert.Gcn.scaled2_apply, h2]
  exact congrArg (· * d (ix1 (row T hT p))) (Finset.sum_congr rfl fun k _ => by rw [h0, h1])

/-- Where each window of the second call sits at a step, decided over the ten steps. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 10 := by have := t.isLt; have h : cfg1.N = 10 := N_1; omega

/-- The feature block at step `t` is rows `10000·t …` of the second call's feature array. -/
theorem blk1_0 (c : Dev nD) (t : Fin cfg1.N) (p : Fin 10000) (k : Fin 128) :
    (iblk1 V c 0 t : Vec Ideal S10000x128 .f32) (ix2 p k) = (V c main_v26 : S100000x128.Idx → EReal) (ix2 (row t.val (lt1 t) p) k) := by
  obtain ⟨e0, e1, -⟩ := idx1 t
  unfold iblk1
  rw [View.read_apply]
  show V c main_v26 _ = V c main_v26 _
  refine congrArg (V c main_v26) ?_
  funext a
  apply Fin.ext
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega

/-- The weight block at every step is the second weight matrix. -/
theorem blk1_1 (c : Dev nD) (t : Fin cfg1.N) (k : Fin 128) (q : Fin 64) :
    (iblk1 V c 1 t : Vec Ideal S128x64 .f32) (ix2 k q) = (V c main_arg4 : S128x64.Idx → EReal) (ix2 k q) := by
  obtain ⟨-, -, e0, e1, -⟩ := idx1 t
  unfold iblk1
  rw [View.read_apply]
  show V c main_arg4 _ = V c main_arg4 _
  refine congrArg (V c main_arg4) ?_
  funext a
  apply Fin.ext
  match a with
  | ⟨0, _⟩ => show win1_1.index t (0 : Fin 2) * 128 + 1 * k.val = k.val; rw [e0]; omega
  | ⟨1, _⟩ => show win1_1.index t (1 : Fin 2) * 64 + 1 * q.val = q.val; rw [e1]; omega

/-- The inverse-degree block at step `t` is rows `10000·t …` of the [100000, 1] column. -/
theorem blk1_2 (c : Dev nD) (t : Fin cfg1.N) (p : Fin 10000) :
    (iblk1 V c 2 t : Vec Ideal S10000x1 .f32) (ix2 p (0 : Fin 1)) = (V c main_v12 : S100000x1.Idx → EReal) (ix2 (row t.val (lt1 t) p) (0 : Fin 1)) := by
  obtain ⟨-, -, -, -, e0, e1, -⟩ := idx1 t
  unfold iblk1
  rw [View.read_apply]
  show V c main_v12 _ = V c main_v12 _
  refine congrArg (V c main_v12) ?_
  funext a
  apply Fin.ext
  match a with
  | ⟨0, _⟩ => show win1_2.index t (0 : Fin 2) * 10000 + 1 * p.val = t.val * 10000 + p.val; rw [e0]; omega
  | ⟨1, _⟩ => show win1_2.index t (1 : Fin 2) * 1 + 1 * 0 = 0; rw [e1]

/-- WHAT STEP `t` OF THE SECOND CALL WRITES BACK is rows `10000·t …` of layer 2's scaled projection. -/
theorem flushed1_eq (c : Dev nD) (d : FVec Ideal S100000 .f32)
    (hd : ∀ P : Fin 100000, (V c main_v12 : S100000x1.Idx → EReal) (ix2 P (0 : Fin 1)) = d (ix1 P)) (t : Fin cfg1.N) :
    (dat1 V c).flushed 3 t = ((cfg1.win 3).blk t).view.read (Elt Ideal) (Cert.Gcn.scaled2 (V c main_v26) (V c main_arg4) d) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x64) hz, View.ld_unit_zero (S := S10000x1) hz]
  obtain ⟨-, -, -, -, -, -, e0, e1⟩ := idx1 t
  funext j
  obtain ⟨p, q, rfl⟩ : ∃ (p : Fin 10000) (q : Fin 64), j = ix2 p q := ⟨j 0, j 1, eq_ix2 j⟩
  refine (step1_eq (V c main_v26) (V c main_arg4) d _ _ _ t.val (lt1 t) (blk1_0 V c t) (blk1_1 V c t)
    (fun p => (blk1_2 V c t p).trans (hd _)) p q).trans ?_
  rw [View.read_apply]
  refine congrArg (Cert.Gcn.scaled2 (V c main_v26) (V c main_arg4) d) ?_
  funext a
  apply Fin.ext
  match a with
  | ⟨0, _⟩ => show t.val * 10000 + p.val = win1_3.index t (0 : Fin 2) * 10000 + 1 * p.val; rw [e0]; omega
  | ⟨1, _⟩ => show q.val = win1_3.index t (1 : Fin 2) * 64 + 1 * q.val; rw [e1]; omega

theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v27).slice (win1_3.rect t)).set ↔ _
  rw [View.set_slice_whole, Rect.mem_set_unit]
  exact Iff.rfl

theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_3 _, ?_⟩
  obtain ⟨-, -, -, -, -, -, e0, e1⟩ := idx1 ⟨(i 0).val / 10000, by rw [hN]; omega⟩
  rw [mem_blk1]
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e1]; omega

/-- THE SECOND CALL'S OUTPUT ARRAY after its ten steps: layer 2's scaled projection of the arrays the call finds. -/
theorem final1 (c : Dev nD) (d : FVec Ideal S100000 .f32)
    (hd : ∀ P : Fin 100000, (V c main_v12 : S100000x1.Idx → EReal) (ix2 P (0 : Fin 1)) = d (ix1 P)) :
    (dat1 V c).arrAt 3 cfg1.N = Cert.Gcn.scaled2 (V c main_v26) (V c main_arg4) d :=
  (dat1 V c).arrAt_eq_of_cover 3 (Cert.Gcn.scaled2 (V c main_v26) (V c main_arg4) d)
    (fun t _ => flushed1_eq V c d hd t) cover1

end Cert.KernelIdeal.Blocks

end
-- ==== Proof.KFold.lean ====
/-
  The kernel program's result as the specification's network of its arguments. The contents of the buffers are
  followed through the five segments: the first stretch computes the edge rows and the inverse-degree column; the
  first pallas_call leaves layer 1's scaled projection in its output array; the second stretch gathers it along the
  edges, sums at the destinations and adds the bias; the second pallas_call leaves layer 2's scaled projection of
  that; the last stretch aggregates again. A buffer that a segment does not write keeps its contents.
-/
import proofs.«124078_j86328842650113_1_alg».proof.Proof.KFold0
import proofs.«124078_j86328842650113_1_alg».proof.Proof.KBlocks

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments the first call reads are as launched -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-- The [100000, 1] column read at row `P` is the inverse degree of node `P`. -/
theorem column_apply (d : FVec Ideal S100000 .f32) (P : Fin 100000) :
    (shapeCast S100000x1 d shapeCasts_S100000_S100000x1 : S100000x1.Idx → EReal) (ix2 P (0 : Fin 1)) = d (ix1 P) := by
  refine shapeCast_apply d shapeCasts_S100000_S100000x1 (ix2 P (0 : Fin 1)) (ix1 P) ?_
  rw [Shape.rowMajor_val_one, Shape.rowMajor_val_two]
  show P.val = P.val * 1 + 0
  omega

/-! ## The first call -/

/-- The column the first call finds, read at row `P`: node `P`'s inverse degree. -/
theorem V1_col (c : Dev nD) (P : Fin 100000) :
    (V1 m ρ c main_v12 : S100000x1.Idx → EReal) (ix2 P (0 : Fin 1)) = Cert.Gcn.degInv (m ((c : Thread nD τ).loc main_arg1)) (ix1 P) :=
  (congrFun (W1_deg m ρ c) _).trans (column_apply _ P)

/-- After the first call its output array holds layer 1's scaled projection of the launch arguments. -/
theorem W2_out (c : Dev nD) : W2 m ρ c (Proc.devRef .tc main_v13)
    = Cert.Gcn.scaled1 (m ((c : Thread nD τ).loc main_arg0)) (m ((c : Thread nD τ).loc main_arg2)) (Cert.Gcn.degInv (m ((c : Thread nD τ).loc main_arg1))) := by
  refine (W2_arr m ρ c 3).trans ?_
  refine (Blocks.final0 (V1 m ρ) c (Cert.Gcn.degInv (m ((c : Thread nD τ).loc main_arg1))) (V1_col m ρ c)).trans ?_
  rw [show V1 m ρ c main_arg0 = m ((c : Thread nD τ).loc main_arg0) from W1_arg0 m ρ c,
    show V1 m ρ c main_arg2 = m ((c : Thread nD τ).loc main_arg2) from W1_arg2 m ρ c]

theorem W2_src (c : Dev nD) : W2 m ρ c (Proc.devRef .tc main_v1) = Cert.Gcn.srcRow (m ((c : Thread nD τ).loc main_arg1)) :=
  (W2_of_ne m ρ c main_v1 (by decide)).trans (W1_src m ρ c)
theorem W2_dst (c : Dev nD) : W2 m ρ c (Proc.devRef .tc main_v3) = Cert.Gcn.dstRow (m ((c : Thread nD τ).loc main_arg1)) :=
  (W2_of_ne m ρ c main_v3 (by decide)).trans (W1_dst m ρ c)
theorem W2_deg (c : Dev nD) : W2 m ρ c (Proc.devRef .tc main_v12)
    = shapeCast S100000x1 (Cert.Gcn.degInv (m ((c : Thread nD τ).loc main_arg1))) shapeCasts_S100000_S100000x1 :=
  ((W2_arr m ρ c 2).trans (((dat0 (V1 m ρ) c).arrAt_in 2 rfl _).trans (A_eq0 (V1 m ρ) c 2))).trans (W1_deg m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## The second stretch of host operations -/

/-- The second call's feature array: layer 1 aggregated along the edges. -/
theorem W3_agg (c : Dev nD) : W3 m ρ c (Proc.devRef .tc main_v26)
    = Cert.Gcn.agg128 (Cert.Gcn.scaled1 (m ((c : Thread nD τ).loc main_arg0)) (m ((c : Thread nD τ).loc main_arg2)) (Cert.Gcn.degInv (m ((c : Thread nD τ).loc main_arg1))))
        (m ((c : Thread nD τ).loc main_arg1)) (m ((c : Thread nD τ).loc main_arg3)) := by
  show StableHlo.after hostOps1 (W2 m ρ c) (Proc.devRef .tc main_v26) = _
  generalize hR : Cert.Gcn.agg128 _ _ _ = R
  after_results_simp
  rw [W2_out m ρ c, W2_src m ρ c, W2_dst m ρ c, W2_arg3 m ρ c]
  subst hR
  rfl

theorem W3_src (c : Dev nD) : W3 m ρ c (Proc.devRef .tc main_v1) = Cert.Gcn.srcRow (m ((c : Thread nD τ).loc main_arg1)) := by
  show StableHlo.after hostOps1 (W2 m ρ c) (Proc.devRef .tc main_v1) = _
  after_results
  exact W2_src m ρ c
theorem W3_dst (c : Dev nD) : W3 m ρ c (Proc.devRef .tc main_v3) = Cert.Gcn.dstRow (m ((c : Thread nD τ).loc main_arg1)) := by
  show StableHlo.after hostOps1 (W2 m ρ c) (Proc.devRef .tc main_v3) = _
  after_results
  exact W2_dst m ρ c
theorem W3_deg (c : Dev nD) : W3 m ρ c (Proc.devRef .tc main_v12)
    = shapeCast S100000x1 (Cert.Gcn.degInv (m ((c : Thread nD τ).loc main_arg1))) shapeCasts_S100000_S100000x1 := by
  show StableHlo.after hostOps1 (W2 m ρ c) (Proc.devRef .tc main_v12) = _
  after_results
  exact W2_deg m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results
  exact W2_arg4 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c

/-! ## The second call -/

theorem V3_col (c : Dev nD) (P : Fin 100000) :
    (V3 m ρ c main_v12 : S100000x1.Idx → EReal) (ix2 P (0 : Fin 1)) = Cert.Gcn.degInv (m ((c : Thread nD τ).loc main_arg1)) (ix1 P) :=
  (congrFun (W3_deg m ρ c) _).trans (column_apply _ P)

/-- After the second call its output array holds layer 2's scaled projection of the aggregated layer 1. -/
theorem W4_out (c : Dev nD) : W4 m ρ c (Proc.devRef .tc main_v27)
    = Cert.Gcn.scaled2 (Cert.Gcn.agg128 (Cert.Gcn.scaled1 (m ((c : Thread nD τ).loc main_arg0)) (m ((c : Thread nD τ).loc main_arg2)) (Cert.Gcn.degInv (m ((c : Thread nD τ).loc main_arg1))))
        (m ((c : Thread nD τ).loc main_arg1)) (m ((c : Thread nD τ).loc main_arg3)))
      (m ((c : Thread nD τ).loc main_arg4)) (Cert.Gcn.degInv (m ((c : Thread nD τ).loc main_arg1))) := by
  refine (W4_arr m ρ c 3).trans ?_
  refine (Blocks.final1 (V3 m ρ) c (Cert.Gcn.degInv (m ((c : Thread nD τ).loc main_arg1))) (V3_col m ρ c)).trans ?_
  rw [show V3 m ρ c main_v26 = _ from W3_agg m ρ c, show V3 m ρ c main_arg4 = m ((c : Thread nD τ).loc main_arg4) from W3_arg4 m ρ c]

theorem W4_src (c : Dev nD) : W4 m ρ c (Proc.devRef .tc main_v1) = Cert.Gcn.srcRow (m ((c : Thread nD τ).loc main_arg1)) :=
  (W4_of_ne m ρ c main_v1 (by decide)).trans (W3_src m ρ c)
theorem W4_dst (c : Dev nD) : W4 m ρ c (Proc.devRef .tc main_v3) = Cert.Gcn.dstRow (m ((c : Thread nD τ).loc main_arg1)) :=
  (W4_of_ne m ρ c main_v3 (by decide)).trans (W3_dst m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## The last stretch: the result -/

/-- THE RESULT BUFFER after the whole program: the specification's network of the launch arguments. -/
theorem W5_result (c : Dev nD) : W5 m ρ c (Proc.devRef .tc main_v40)
    = Cert.Gcn.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show StableHlo.after hostOps2 (W4 m ρ c) (Proc.devRef .tc main_v40) = _
  generalize hR : Cert.Gcn.net _ _ _ _ _ _ = R
  after_results_simp
  rw [W4_out m ρ c, W4_src m ρ c, W4_dst m ρ c, W4_arg5 m ρ c]
  subst hR
  rfl

end Cert.KernelIdeal.Fold

end
-- ==== Proof.RefNet.lean ====
/-
  The reference program's result is the specification's network of its arguments: its composed term, operation by
  operation, is the two layers of the specification (projection, inverse-degree scale, gather along the edges'
  sources, sum at their destinations, bias; a clamp at zero between the layers) — the same term, grouped.
-/
import proofs.«124078_j86328842650113_1_alg».proof.Proof.Gen.ReferenceIdeal.Run
import proofs.«124078_j86328842650113_1_alg».proof.Proof.Spec

set_option maxRecDepth 16384

noncomputable section

namespace Cert.ReferenceIdeal.Net

open Cert.ReferenceIdeal Cert.ReferenceIdeal.Gen
open Idealize.ShloMosaic Idealize.ShloMosaic.TcCoe Idealize.SL.Sem

theorem result_eq (m : (ℓ : Loc nD τ sig) → Buf (Elt Ideal) ℓ) (c : Dev nD) :
    Cert.ReferenceIdeal.Value.res_main_v54 (F := Ideal) m c
      = Cert.Gcn.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v54
  rfl

end Cert.ReferenceIdeal.Net

end
-- ==== Proof.lean ====
/-
  Two graph-convolution layers, each: project every node's feature row through a weight matrix, scale the row by
  the node's inverse out-degree, gather the rows along the edges' sources, add them up at the edges' destinations, add
  the bias; the second layer clamps its input at zero first.

  The kernel program computes the projection and the scale of each layer in a pallas_call over ten blocks of 10000
  node rows (a product of a row block with the whole weight matrix into a zero accumulator, times the block of the
  inverse-degree column) and everything else with host operations; the reference computes every step with host
  operations. Over the extended reals a change of float format is the identity, so the two programs differ only in how
  the projection is arranged: a step's stored block is the same rows of the whole-array product scaled row by row, and
  the ten row blocks cover the array. Both results are therefore the same composition `Cert.Gcn.net` of the argument
  arrays (Proof/Spec.lean): the kernel program's by following its buffers through its five segments (Proof/KFold.lean,
  over Proof/KBlocks.lean, Proof/PayAt.lean and Proof/SpecAt.lean), the reference's by regrouping its term
  (Proof/RefNet.lean). No law of arithmetic beyond reindexing a finite sum is used, and no finiteness of the inputs.
-/
import proofs.«124078_j86328842650113_1_alg».proof.Defs
import proofs.«124078_j86328842650113_1_alg».proof.Proof.Gen.Kernel
import proofs.«124078_j86328842650113_1_alg».proof.Proof.Gen.Kernel.Frame
import proofs.«124078_j86328842650113_1_alg».proof.Proof.Gen.KernelIdeal
import proofs.«124078_j86328842650113_1_alg».proof.Proof.Gen.KernelIdeal.Frame
import proofs.«124078_j86328842650113_1_alg».proof.Proof.Gen.ReferenceIdeal
import proofs.«124078_j86328842650113_1_alg».proof.Proof.Gen.Pre_finite_inputs
import proofs.«124078_j86328842650113_1_alg».proof.Proof.Gen.ReferenceIdeal.Run
import proofs.«124078_j86328842650113_1_alg».proof.Proof.KRun
import proofs.«124078_j86328842650113_1_alg».proof.Proof.KFold
import proofs.«124078_j86328842650113_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel program was read over the extended reals. -/
theorem preserves : Cert.preserves_Kernel_KernelIdeal := trivial

/-- From memories that agree on the arguments both programs end with the network of the arguments in their result
    buffers. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.W5_result m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Net.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
